-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x48x48 : Shape := ⟨3, ![32, 48, 48]⟩
abbrev S32x512x512 : Shape := ⟨3, ![32, 512, 512]⟩
abbrev S32x512x1024 : Shape := ⟨3, ![32, 512, 1024]⟩
abbrev S_ : Shape := ⟨0, ![]⟩

class Facts : Prop where
  bcast_S_S32x48x48 : S_.BroadcastsInDim S32x48x48 (![] : Fin 0 → Fin S32x48x48.rank)
  reducesTo_S32x48x48_S_d0_1_2 : S32x48x48.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn_part1 {F : FTy → Type} [FloatOps F] (main_arg4 : FVec F S32x512x512 .f32) (main_arg5 : FVec F S32x512x512 .f32) (main_arg6 : FVec F S32x512x1024 .f32) (main_v13 : IVec S_ 1) (main_v16 : IVec S32x512x512 1) : IVec S_ 1 :=
  let main_c_5 : IVec S_ 1 := constantI S_ 1 1#1
  let main_v17 : IVec S_ 1 := (fun x v => Host.reduce IntOp.andi x v reducesTo_S32x512x512_S_d0_1_2 h_S_) main_v16 main_c_5
  let main_v18 : IVec S_ 1 := andi main_v13 main_v17
  let main_v19 : FVec F S32x512x512 .f32 := Host.absf main_arg4
  let main_cst_6 : FVec F S_ .f32 := constant S_ .f32 0x7F800000#32
  let main_v20 : FVec F S32x512x512 .f32 := broadcastInDim S32x512x512 ![] bcast_S_S32x512x512 main_cst_6
  let main_v21 : IVec S32x512x512 1 := cmpf .olt main_v19 main_v20
  let main_c_7 : IVec S_ 1 := constantI S_ 1 1#1
  let main_v22 : IVec S_ 1 := (fun x v => Host.reduce IntOp.andi x v reducesTo_S32x512x512_S_d0_1_2 h_S_) main_v21 main_c_7
  let main_v23 : IVec S_ 1 := andi main_v18 main_v22
  let main_v24 : FVec F S32x512x512 .f32 := Host.absf main_arg5
  let main_cst_8 : FVec F S_ .f32 := constant S_ .f32 0x7F800000#32
  let main_v25 : FVec F S32x512x512 .f32 := broadcastInDim S32x512x512 ![] bcast_S_S32x512x512 main_cst_8
  let main_v26 : IVec S32x512x512 1 := cmpf .olt main_v24 main_v25
  let main_c_9 : IVec S_ 1 := constantI S_ 1 1#1
  let main_v27 : IVec S_ 1 := (fun x v => Host.reduce IntOp.andi x v reducesTo_S32x512x512_S_d0_1_2 h_S_) main_v26 main_c_9
  let main_v28 : IVec S_ 1 := andi main_v23 main_v27
  let main_v29 : FVec F S32x512x1024 .f32 := Host.absf main_arg6
  let main_cst_10 : FVec F S_ .f32 := constant S_ .f32 0x7F800000#32
  let main_v30 : FVec F S32x512x1024 .f32 := broadcastInDim S32x512x1024 ![] bcast_S_S32x512x1024 main_cst_10
  let main_v31 : IVec S32x512x1024 1 := cmpf .olt main_v29 main_v30
  let main_c_11 : IVec S_ 1 := constantI S_ 1 1#1
  let main_v32 : IVec S_ 1 := (fun x v => Host.reduce IntOp.andi x v reducesTo_S32x512x1024_S_d0_1_2 h_S_) main_v31 main_c_11
  let main_v33 : IVec S_ 1 := andi main_v28 main_v32
  main_v33

def fn {F : FTy → Type} [FloatOps F] (main_arg0 : FVec F S32x48x48 .f32) (main_arg1 : FVec F S32x48x48 .f32) (main_arg2 : FVec F S32x48x48 .f32) (main_arg3 : FVec F S32x512x512 .f32) (main_arg4 : FVec F S32x512x512 .f32) (main_arg5 : FVec F S32x512x512 .f32) (main_arg6 : FVec F S32x512x1024 .f32) : IVec S_ 1 :=
  let main_v0 : FVec F S32x48x48 .f32 := Host.absf main_arg0
  let main_cst : FVec F S_ .f32 := constant S_ .f32 0x7F800000#32
  let main_v1 : FVec F S32x48x48 .f32 := broadcastInDim S32x48x48 ![] bcast_S_S32x48x48 main_cst
  let main_v2 : IVec S32x48x48 1 := cmpf .olt main_v0 main_v1
  let main_c : IVec S_ 1 := constantI S_ 1 1#1
  let main_v3 : IVec S_ 1 := (fun x v => Host.reduce IntOp.andi x v reducesTo_S32x48x48_S_d0_1_2 h_S_) main_v2 main_c
  let main_v4 : FVec F S32x48x48 .f32 := Host.absf main_arg1
  let main_cst_0 : FVec F S_ .f32 := constant S_ .f32 0x7F800000#32
  let main_v5 : FVec F S32x48x48 .f32 := broadcastInDim S32x48x48 ![] bcast_S_S32x48x48 main_cst_0
  let main_v6 : IVec S32x48x48 1 := cmpf .olt main_v4 main_v5
  let main_c_1 : IVec S_ 1 := constantI S_ 1 1#1
  let main_v7 : IVec S_ 1 := (fun x v => Host.reduce IntOp.andi x v reducesTo_S32x48x48_S_d0_1_2 h_S_) main_v6 main_c_1
  let main_v8 : IVec S_ 1 := andi main_v3 main_v7
  let main_v9 : FVec F S32x48x48 .f32 := Host.absf main_arg2
  let main_cst_2 : FVec F S_ .f32 := constant S_ .f32 0x7F800000#32
  let main_v10 : FVec F S32x48x48 .f32 := broadcastInDim S32x48x48 ![] bcast_S_S32x48x48 main_cst_2
  let main_v11 : IVec S32x48x48 1 := cmpf .olt main_v9 main_v10
  let main_c_3 : IVec S_ 1 := constantI S_ 1 1#1
  let main_v12 : IVec S_ 1 := (fun x v => Host.reduce IntOp.andi x v reducesTo_S32x48x48_S_d0_1_2 h_S_) main_v11 main_c_3
  let main_v13 : IVec S_ 1 := andi main_v8 main_v12
  let main_v14 : FVec F S32x512x512 .f32 := Host.absf main_arg3
  let main_cst_4 : FVec F S_ .f32 := constant S_ .f32 0x7F800000#32
  let main_v15 : FVec F S32x512x512 .f32 := broadcastInDim S32x512x512 ![] bcast_S_S32x512x512 main_cst_4
  let main_v16 : IVec S32x512x512 1 := cmpf .olt main_v14 main_v15
  fn_part1 (F := F) main_arg4 main_arg5 main_arg6 main_v13 main_v16
-- ==== Kernel.lean ====
abbrev S32x48x48 : Shape := ⟨3, ![32, 48, 48]⟩
abbrev S32x512x512 : Shape := ⟨3, ![32, 512, 512]⟩
abbrev S32x512x1024 : Shape := ⟨3, ![32, 512, 1024]⟩
abbrev S1x512x512 : Shape := ⟨3, ![1, 512, 512]⟩
abbrev S1x512x1024 : Shape := ⟨3, ![1, 512, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32x48x48, .f32⟩
  | .hbm, ⟨1, _⟩ => ⟨S32x48x48, .f32⟩
  | .hbm, ⟨2, _⟩ => ⟨S32x48x48, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x1024, .f32⟩
  | .hbm, ⟨7, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1024, .f32⟩
  | .local _ .vmem, ⟨7, _⟩ => ⟨S1x512x1024, .f32⟩
  | .local _ .vmem, ⟨8, _⟩ => ⟨S1x512x512, .f32⟩
  | .local _ .vmem, ⟨9, _⟩ => ⟨S1x512x512, .f32⟩
  | _, _ => ⟨S32x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x512_p1_0_S512x512 : S512x512.Transposes [1, 0] S512x512
  reduces_S512x512_S512 : S512x512.Reduces [1] S512
  shapeCasts_S512_S512x1 : S512.ShapeCasts S512x1
  broadcasts_S512x1_S512x1024 : S512x1.Broadcasts S512x1024
  reduces_S512x1024_S512 : S512x1024.Reduces [1] S512
  bitsLt_bf16_f32 : FTy.bits .bf16 < FTy.bits .f32
  shapeCasts_S512x512_S1x512x512 : S512x512.ShapeCasts S1x512x512
  dot_S512x512_S512x512_S512x512_1_0_0_1_n_n_wf : DotDims.WF S512x512 S512x512 S512x512 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .f32 = 32 ∨ (Rect.block (s := S32x512x512) S1x512x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg3) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x48x48 : Shape := ⟨3, ![32, 48, 48]⟩
abbrev S32x512x512 : Shape := ⟨3, ![32, 512, 512]⟩
abbrev S32x512x1024 : Shape := ⟨3, ![32, 512, 1024]⟩
abbrev S48x48 : Shape := ⟨2, ![48, 48]⟩
abbrev S_ : Shape := ⟨0, ![]⟩
abbrev S1x48x48 : Shape := ⟨3, ![1, 48, 48]⟩
abbrev S512x512 : Shape := ⟨2, ![512, 512]⟩
abbrev S1x512x512 : Shape := ⟨3, ![1, 512, 512]⟩
abbrev S32x512 : Shape := ⟨2, ![32, 512]⟩
abbrev S32x512x1 : Shape := ⟨3, ![32, 512, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x48x48, .f32⟩
  | .hbm, ⟨1, _⟩ => ⟨S32x48x48, .f32⟩
  | .hbm, ⟨2, _⟩ => ⟨S32x48x48, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x1024, .f32⟩
  | .hbm, ⟨7, _⟩ => ⟨S48x48, .i32⟩
  | .hbm, ⟨8, _⟩ => ⟨S48x48, .i32⟩
  | .hbm, ⟨9, _⟩ => ⟨S_, .i32⟩
  | .hbm, ⟨10, _⟩ => ⟨S48x48, .i32⟩
  | .hbm, ⟨11, _⟩ => ⟨S48x48, .i32⟩
  | .hbm, ⟨12, _⟩ => ⟨S48x48, .i1⟩
  | .hbm, ⟨13, _⟩ => ⟨S48x48, .f32⟩
  | .hbm, ⟨14, _⟩ => ⟨S32x48x48, .f32⟩
  | .hbm, ⟨15, _⟩ => ⟨S32x48x48, .f32⟩
  | .hbm, ⟨16, _⟩ => ⟨S1x48x48, .f32⟩
  | .hbm, ⟨17, _⟩ => ⟨S32x48x48, .f32⟩
  | .hbm, ⟨18, _⟩ => ⟨S32x48x48, .f32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i1⟩
  | .hbm, ⟨25, _⟩ => ⟨S512x512, .f32⟩
  | .hbm, ⟨26, _⟩ => ⟨S32x512x512, .f32⟩
  | .hbm, ⟨27, _⟩ => ⟨S32x512x512, .f32⟩
  | .hbm, ⟨28, _⟩ => ⟨S1x512x512, .f32⟩
  | .hbm, ⟨29, _⟩ => ⟨S32x512x512, .f32⟩
  | .hbm, ⟨30, _⟩ => ⟨S32x512x512, .f32⟩
  | .hbm, ⟨31, _⟩ => ⟨S32x512x1024, .f32⟩
  | .hbm, ⟨32, _⟩ => ⟨S_, .f32⟩
  | .hbm, ⟨33, _⟩ => ⟨S32x512x1024, .f32⟩
  | .hbm, ⟨34, _⟩ => ⟨S32x512x1024, .f32⟩
  | .hbm, ⟨35, _⟩ => ⟨S32x512x1024, .f32⟩
  | .hbm, ⟨36, _⟩ => ⟨S_, .f32⟩
  | .hbm, ⟨37, _⟩ => ⟨S32x512, .f32⟩
  | .hbm, ⟨38, _⟩ => ⟨S32x512x1, .f32⟩
  | .hbm, ⟨39, _⟩ => ⟨S_, .f32⟩
  | .hbm, ⟨40, _⟩ => ⟨S32x512x1, .f32⟩
  | .hbm, ⟨41, _⟩ => ⟨S32x512x1, .f32⟩
  | .hbm, ⟨42, _⟩ => ⟨S32x512x1024, .f32⟩
  | .hbm, ⟨43, _⟩ => ⟨S32x512x1024, .f32⟩
  | .hbm, ⟨44, _⟩ => ⟨S32x512x1024, .f32⟩
  | .hbm, ⟨45, _⟩ => ⟨S_, .f32⟩
  | .hbm, ⟨46, _⟩ => ⟨S32x512, .f32⟩
  | .hbm, ⟨47, _⟩ => ⟨S32x512x1, .f32⟩
  | .hbm, ⟨48, _⟩ => ⟨S32x512x1, .f32⟩
  | .hbm, ⟨49, _⟩ => ⟨S32x512x1024, .f32⟩
  | .hbm, ⟨50, _⟩ => ⟨S32x512x1024, .f32⟩
  | .hbm, ⟨51, _⟩ => ⟨S32x512x512, .f32⟩
  | _, _ => ⟨S32x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S_S48x48 : S_.BroadcastsInDim S48x48 (![] : Fin 0 → Fin S48x48.rank)
  bcast_S48x48_S1x48x48_1_2 : S48x48.BroadcastsInDim S1x48x48 (![1, 2] : Fin 2 → Fin S1x48x48.rank)
  bcast_S1x48x48_S32x48x48_0_1_2 : S1x48x48.BroadcastsInDim S32x48x48 (![0, 1, 2] : Fin 3 → Fin S32x48x48.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S_S32x512x1024 : S_.BroadcastsInDim S32x512x1024 (![] : Fin 0 → Fin S32x512x1024.rank)
  reducesTo_S32x512x1024_S32x512_d2 : S32x512x1024.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x1024_0_1_2 : S32x512x1.BroadcastsInDim S32x512x1024 (![0, 1, 2] : Fin 3 → Fin S32x512x1024.rank)
  dot_S32x48x48_S32x48x48_S32x48x48_1_2_2_1_0_0_wf : DotDims.WF S32x48x48 S32x48x48 S32x48x48 [1] [2] [2] [1] [0] [0]
  dot_S32x48x48_S32x48x48_S32x48x48_1_1_2_2_0_0_wf : DotDims.WF S32x48x48 S32x48x48 S32x48x48 [1] [1] [2] [2] [0] [0]
  dot_S32x512x512_S32x512x512_S32x512x512_1_2_2_1_0_0_wf : DotDims.WF S32x512x512 S32x512x512 S32x512x512 [1] [2] [2] [1] [0] [0]
  dot_S32x512x512_S32x512x512_S32x512x512_1_1_2_2_0_0_wf : DotDims.WF S32x512x512 S32x512x512 S32x512x512 [1] [1] [2] [2] [0] [0]
  dot_S32x512x512_S32x512x1024_S32x512x1024_2_1_1_2_0_0_wf : DotDims.WF S32x512x512 S32x512x1024 S32x512x1024 [2] [1] [1] [2] [0] [0]
  dot_S32x512x1024_S32x512x1024_S32x512x512_2_2_1_1_0_0_wf : DotDims.WF S32x512x1024 S32x512x1024 S32x512x512 [2] [2] [1] [1] [0] [0]

variable [Facts₀]

def dot_S32x48x48_S32x48x48_S32x48x48_1_2_2_1_0_0 : DotDims S32x48x48 S32x48x48 S32x48x48 where
  lhsContracting := [1]
  rhsContracting := [2]
  lhsNonContracting := [2]
  rhsNonContracting := [1]
  lhsBatch := [0]
  rhsBatch := [0]
  wf := dot_S32x48x48_S32x48x48_S32x48x48_1_2_2_1_0_0_wf
def dot_S32x48x48_S32x48x48_S32x48x48_1_1_2_2_0_0 : DotDims S32x48x48 S32x48x48 S32x48x48 where
  lhsContracting := [1]
  rhsContracting := [1]
  lhsNonContracting := [2]
  rhsNonContracting := [2]
  lhsBatch := [0]
  rhsBatch := [0]
  wf := dot_S32x48x48_S32x48x48_S32x48x48_1_1_2_2_0_0_wf
def dot_S32x512x512_S32x512x512_S32x512x512_1_2_2_1_0_0 : DotDims S32x512x512 S32x512x512 S32x512x512 where
  lhsContracting := [1]
  rhsContracting := [2]
  lhsNonContracting := [2]
  rhsNonContracting := [1]
  lhsBatch := [0]
  rhsBatch := [0]
  wf := dot_S32x512x512_S32x512x512_S32x512x512_1_2_2_1_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf

class Facts : Prop extends Facts₀ where

variable [Facts]
-- ==== Proof.Spec.lean ====
/-
  The mathematics both programs compute, over the extended reals, with no program in sight.

  Per batch entry there are three square matrices `pb`, `ev`, `w` and a matrix of row features `ft`.
  * THE TAIL (`gram`).  Each row of a feature matrix `F` is centred (its mean, the row sum divided by `n`, is
    subtracted), scaled by the reciprocal square root of its sum of squares, and the result is multiplied by its own
    transpose: entry `(r, s)` is the sum over `k` of the two scaled rows' products.
  * THE FEATURES, in the arrangement of each side.  One side scales row `i` of `ft` by `one + c · d i`, where `d i` is
    the `i`-th diagonal entry of `pb · (ev · w)` (`featK`).  The other forms the whole triple product `(pb · ev) · w`,
    keeps its diagonal by an entrywise product with the identity matrix, multiplies that diagonal matrix with `ft`,
    scales by `c` and adds `ft` (`featR`).
  * THE LAW (`featR_eq_featK`).  When every entry is a real number the two arrangements agree: the identity matrix
    leaves one term of the sum over its second index, the two groupings of the triple product have the same diagonal
    (exchange the two sums, distribute), and `c · (d · x) + x = x · (1 + c · d)`.  Distributing a product over a sum is
    where the entries have to be real: it fails at the infinities.
  * THE RESULT ARRAY (`result`).  Over 32 batch entries, 512 rows and 1024 features: entry `(b, r, s)` is the Gram
    matrix, at `(r, s)`, of the scaled features of batch entry `b`, with the three float constants the programs write.
-/
import Idealize.ShloMosaic.PureOps.Ideal
import Idealize.ShloMosaic.Lib.ValueIdx

noncomputable section

open scoped BigOperators

namespace Cert.RowGram

open Idealize.ShloMosaic

variable {R K : ℕ}

/-! ## The tail -/

/-- The mean of row `i`: its sum divided by `n`. -/
def rowMean (n : EReal) (F : Fin R → Fin K → EReal) (i : Fin R) : EReal := Ideal.div (∑ k, F i k) n

/-- Row `i` with its mean subtracted. -/
def centred (n : EReal) (F : Fin R → Fin K → EReal) (i : Fin R) (k : Fin K) : EReal := F i k - rowMean n F i

/-- The centred row scaled by the reciprocal square root of its sum of squares. -/
def unitRow (n : EReal) (F : Fin R → Fin K → EReal) (i : Fin R) (k : Fin K) : EReal :=
  centred n F i k * Ideal.rsqrt (∑ k', centred n F i k' * centred n F i k')

/-- The scaled rows multiplied with their own transpose. -/
def gram (n : EReal) (F : Fin R → Fin K → EReal) (r s : Fin R) : EReal := ∑ k, unitRow n F r k * unitRow n F s k

/-! ## The features, in two arrangements -/

/-- The `i`-th diagonal entry of `pb · (ev · w)`. -/
def diagK (pb ev w : Fin R → Fin R → EReal) (i : Fin R) : EReal := ∑ k, pb i k * ∑ j, ev k j * w j i

/-- Row `i` of the features scaled by `one + c · d i`. -/
def featK (c one : EReal) (pb ev w : Fin R → Fin R → EReal) (ft : Fin R → Fin K → EReal) (i : Fin R) (q : Fin K) : EReal :=
  ft i q * (one + c * diagK pb ev w i)

/-- Entry `(i, l)` of `(pb · ev) · w`, the inner product written with `ev` first. -/
def tripleR (pb ev w : Fin R → Fin R → EReal) (i l : Fin R) : EReal := ∑ k, (∑ j, ev j k * pb i j) * w k l

/-- `c` times the product of the masked triple product with the features, plus the features. -/
def featR (c : EReal) (eye : Fin R → Fin R → EReal) (pb ev w : Fin R → Fin R → EReal) (ft : Fin R → Fin K → EReal)
    (i : Fin R) (q : Fin K) : EReal :=
  c * (∑ l, (tripleR pb ev w i l * eye i l) * ft l q) + ft i q

/-! ## The law -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals the two groupings of the triple product have the same diagonal. -/
theorem diag_real (pb ev w : Fin R → Fin R → ℝ) (i : Fin R) :
    (∑ k, (∑ j, ev j k * pb i j) * w k i) = ∑ k, pb i k * ∑ j, ev k j * w j i := by
  simp only [Finset.sum_mul, Finset.mul_sum]
  rw [Finset.sum_comm]
  exact Finset.sum_congr rfl fun j _ => Finset.sum_congr rfl fun k _ => by ring

/-- The two arrangements of the features agree on real entries, `eye` the identity matrix. -/
theorem featR_eq_featK_coe (c : ℝ) (eye : Fin R → Fin R → EReal) (heye : ∀ i l, eye i l = if i = l then (1 : EReal) else 0)
    (pb ev w : Fin R → Fin R → ℝ) (ft : Fin R → Fin K → ℝ) (i : Fin R) (q : Fin K) :
    featR (c : EReal) eye (fun a b => (pb a b : EReal)) (fun a b => (ev a b : EReal)) (fun a b => (w a b : EReal))
        (fun a b => (ft a b : EReal)) i q
      = featK (c : EReal) 1 (fun a b => (pb a b : EReal)) (fun a b => (ev a b : EReal)) (fun a b => (w a b : EReal))
        (fun a b => (ft a b : EReal)) i q := by
  unfold featR featK diagK tripleR
  have hsum : (∑ l, ((∑ k, (∑ j, (ev j k : EReal) * (pb i j : EReal)) * (w k l : EReal)) * eye i l) * (ft l q : EReal))
      = (∑ k, (∑ j, (ev j k : EReal) * (pb i j : EReal)) * (w k i : EReal)) * (ft i q : EReal) := by
    rw [Finset.sum_eq_single i]
    · rw [heye, if_pos rfl, mul_one]
    · intro l _ hl
      rw [heye, if_neg (Ne.symm hl), mul_zero, zero_mul]
    · intro h
      exact absurd (Finset.mem_univ i) h
  rw [hsum]
  simp only [← EReal.coe_mul, ← coe_sum, ← EReal.coe_add, ← EReal.coe_one]
  refine congrArg _ ?_
  rw [diag_real]
  ring

/-- The same for extended-real entries each of which is a real number. -/
theorem featR_eq_featK {c : EReal} (hc : ∃ r : ℝ, c = (r : EReal)) (eye : Fin R → Fin R → EReal)
    (heye : ∀ i l, eye i l = if i = l then (1 : EReal) else 0)
    (pb ev w : Fin R → Fin R → EReal) (ft : Fin R → Fin K → EReal)
    (hpb : ∀ a b, ∃ r : ℝ, pb a b = (r : EReal)) (hev : ∀ a b, ∃ r : ℝ, ev a b = (r : EReal))
    (hw : ∀ a b, ∃ r : ℝ, w a b = (r : EReal)) (hft : ∀ a b, ∃ r : ℝ, ft a b = (r : EReal)) :
    featR c eye pb ev w ft = featK c 1 pb ev w ft := by
  obtain ⟨cr, rfl⟩ := hc
  choose pbr hpbr using hpb
  choose evr hevr using hev
  choose wr hwr using hw
  choose ftr hftr using hft
  obtain rfl : pb = fun a b => (pbr a b : EReal) := funext fun a => funext fun b => hpbr a b
  obtain rfl : ev = fun a b => (evr a b : EReal) := funext fun a => funext fun b => hevr a b
  obtain rfl : w = fun a b => (wr a b : EReal) := funext fun a => funext fun b => hwr a b
  obtain rfl : ft = fun a b => (ftr a b : EReal) := funext fun a => funext fun b => hftr a b
  funext i q
  exact featR_eq_featK_coe cr eye heye pbr evr wr ftr i q

/-! ## The result array -/

/-- The three float constants of the programs, as the extended reals their bit patterns denote: the scale `c`, one,
    and the number of features. -/
abbrev cScale : EReal := Ideal.ofBits .f32 0x3E99999A#32
abbrev cOne : EReal := Ideal.ofBits .f32 0x3F800000#32
abbrev cCols : EReal := Ideal.ofBits .f32 0x44800000#32

/-- The pattern of `1.0` denotes one. -/
theorem cOne_eq : cOne = 1 := by
  simp [cOne, Ideal.ofBits, Ideal.ieee, -EReal.coe_mul]
  norm_num

/-- The pattern of the scale denotes a real number. -/
theorem cScale_real : ∃ r : ℝ, cScale = (r : EReal) := by
  have h1 : cScale ≠ ⊤ := by simp [cScale, Ideal.ofBits, Ideal.ieee, -EReal.coe_mul]
  have h2 : cScale ≠ ⊥ := by simp [cScale, Ideal.ofBits, Ideal.ieee, -EReal.coe_mul]
  exact ⟨cScale.toReal, (EReal.coe_toReal h1 h2).symm⟩

open Idealize.ShloMosaic.ValueIdx in
/-- Entry `(b, r, s)` of the result, from the four argument arrays. -/
def resultAt (a3 a4 a5 : (⟨3, ![32, 512, 512]⟩ : Shape).Idx → EReal) (a6 : (⟨3, ![32, 512, 1024]⟩ : Shape).Idx → EReal)
    (b : Fin 32) (r s : Fin 512) : EReal :=
  gram cCols (featK cScale cOne (fun x y => a3 (ix3 b x y)) (fun x y => a4 (ix3 b x y)) (fun x y => a5 (ix3 b x y))
    (fun x y => a6 (ix3 b x y))) r s

/-- The result array. -/
def result (a3 a4 a5 : (⟨3, ![32, 512, 512]⟩ : Shape).Idx → EReal) (a6 : (⟨3, ![32, 512, 1024]⟩ : Shape).Idx → EReal) :
    (⟨3, ![32, 512, 512]⟩ : Shape).Idx → EReal :=
  fun i => resultAt a3 a4 a5 a6 ⟨(i 0).val, (i 0).isLt⟩ ⟨(i 1).val, (i 1).isLt⟩ ⟨(i 2).val, (i 2).isLt⟩

end Cert.RowGram

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.KernelPayload.lean ====
/-
  What one grid point of the kernel computes, read at an index.

  At a grid point the body holds one batch entry: three 512 × 512 blocks `pb`, `ev`, `w` and a 512 × 1024 block of
  features.  Its one stored value is, entry `(r, s)`, the Gram matrix of the rows of the features after each row `i` has
  been scaled by `1 + c · d i` — `d i` the `i`-th diagonal entry of `pb · (ev · w)`, taken as the row sum of the entrywise
  product of `pb` with the transpose of `ev · w` —, centred, and scaled to unit length (`Cert.RowGram.gram` of
  `Cert.RowGram.featK`).  The body's arithmetic is cut into four stretches (`scaledV`, `centredV`, `normV`, `gramV`),
  each read at an index on its own: a matrix product into a zero accumulator is the sum over the contracted index, a
  sum along the second axis is the sum over that axis's coordinates, a column `[512, 1]` broadcast along the rows reads
  the column's entry of the row, and rounding to a narrower float format is the identity on the extended reals.
-/
import proofs.«173695_j1949915152710_2_alg».proof.Proof.Gen.KernelIdeal.Skeleton
import proofs.«173695_j1949915152710_2_alg».proof.Proof.Spec
import proofs.«173695_j1949915152710_2_alg».proof.Proof.LibColumnLayout
import proofs.«173695_j1949915152710_2_alg».proof.Proof.LibReduceLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.RowGram Cert.Lib.ColumnLayout Cert.Lib.ReduceLayout

/-! ## Two matrix products read at an index -/

/-- The operand indices of the rows-times-columns product at output index `i` and contraction index `q`, coordinate by
    coordinate: the left operand is read at (row of `i`, `q`), the right at (`q`, column of `i`). -/
theorem rc_lhs_0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem rc_lhs_1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem rc_rhs_0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem rc_rhs_1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Rows times columns: entry `(a, b)` of `x · y` into a zero accumulator is the sum over `j` of `x (a, j) · y (j, b)`. -/
theorem matmul_rows_cols_apply (prec : Option ContractPrecision) (x y : FVec Ideal S512x512 .f32) (a b : Fin 512) :
    matmul dot_S512x512_S512x512_S512x512_1_0_0_1_n_n prec x y (constant S512x512 .f32 0x00000000#32) (ix2 a b)
      = ∑ j : Fin 512, x (ix2 a j) * y (ix2 j b) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 a b) ((contrEquiv1 dot_S512x512_S512x512_S512x512_1_0_0_1_n_n 512 rfl rfl).symm k) = ix2 a k := funext fun d => Fin.ext (by
    match d with
    | ⟨0, _⟩ => exact rc_lhs_0 _ _
    | ⟨1, _⟩ => exact (rc_lhs_1 _ _).trans hk)
  have er : dot_S512x512_S512x512_S512x512_1_0_0_1_n_n.rhsIdx (ix2 a b) ((contrEquiv1 dot_S512x512_S512x512_S512x512_1_0_0_1_n_n 512 rfl rfl).symm k) = ix2 k b := funext fun d => Fin.ext (by
    match d with
    | ⟨0, _⟩ => exact (rc_rhs_0 _ _).trans hk
    | ⟨1, _⟩ => exact rc_rhs_1 _ _)
  rw [el, er]

/-- The operand indices of the rows-times-rows product: the left operand is read at (row of `i`, `q`), the right at
    (column of `i`, `q`). -/
theorem rr_lhs_0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem rr_lhs_1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
theorem rr_rhs_0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rr_rhs_1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

/-- Rows times rows: entry `(r, s)` of `x · yᵀ` into a zero accumulator is the sum over `k` of `x (r, k) · y (s, k)`. -/
theorem matmul_rows_rows_apply {φ : FTy} (prec : Option ContractPrecision) (x y : FVec Ideal S512x1024 φ) (r s : Fin 512) :
    matmul dot_S512x1024_S512x1024_S512x512_1_1_0_0_n_n prec x y (constant S512x512 .f32 0x00000000#32) (ix2 r s)
      = ∑ k : Fin 1024, x (ix2 r k) * y (ix2 s k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r s) ((contrEquiv1 dot_S512x1024_S512x1024_S512x512_1_1_0_0_n_n 1024 rfl rfl).symm k) = ix2 r k := funext fun d => Fin.ext (by
    match d with
    | ⟨0, _⟩ => exact rr_lhs_0 _ _
    | ⟨1, _⟩ => exact (rr_lhs_1 _ _).trans hk)
  have er : dot_S512x1024_S512x1024_S512x512_1_1_0_0_n_n.rhsIdx (ix2 r s) ((contrEquiv1 dot_S512x1024_S512x1024_S512x512_1_1_0_0_n_n 1024 rfl rfl).symm k) = ix2 s k := funext fun d => Fin.ext (by
    match d with
    | ⟨0, _⟩ => exact rr_rhs_0 _ _
    | ⟨1, _⟩ => exact (rr_rhs_1 _ _).trans hk)
  rw [el, er]

/-! ## The body's four stretches -/

/-- The features with row `i` scaled by `1 + c · d i`. -/
def scaledV (v1 v3 v5 : FVec Ideal S512x512 .f32) (v7 : FVec Ideal S512x1024 .f32) : FVec Ideal S512x1024 .f32 :=
  mulf v7 (broadcastTo S512x1024 (addf (broadcast S512x1 (Scalar.ofBits .f32 0x3F800000#32))
    (mulf (broadcast S512x1 (Scalar.ofBits .f32 0x3E99999A#32))
      (shapeCast S512x1 (multiReduction .add [1] S512 (mulf v1 (transpose S512x512 [1, 0]
        (matmul dot_S512x512_S512x512_S512x512_1_0_0_1_n_n (some .fp32) v3 v5 (constant S512x512 .f32 0x00000000#32))
        transposes_S512x512_p1_0_S512x512)) 0x00000000#32 reduces_S512x512_S512 (.inl rfl) rfl) shapeCasts_S512_S512x1)))
    broadcasts_S512x1_S512x1024)

/-- Each row with its mean subtracted. -/
def centredV (x : FVec Ideal S512x1024 .f32) : FVec Ideal S512x1024 .f32 :=
  subf x (broadcastTo S512x1024 (divf (shapeCast S512x1 (multiReduction .add [1] S512 x 0x00000000#32 reduces_S512x1024_S512 (.inl rfl) rfl)
    shapeCasts_S512_S512x1) (broadcast S512x1 (Scalar.ofBits .f32 0x44800000#32))) broadcasts_S512x1_S512x1024)

/-- Each row times the reciprocal square root of its sum of squares. -/
def normV (y : FVec Ideal S512x1024 .f32) : FVec Ideal S512x1024 .f32 :=
  mulf y (broadcastTo S512x1024 (rsqrt (shapeCast S512x1 (multiReduction .add [1] S512 (mulf y y) 0x00000000#32 reduces_S512x1024_S512 (.inl rfl) rfl)
    shapeCasts_S512_S512x1)) broadcasts_S512x1_S512x1024)

/-- The rows, rounded to the narrower format, multiplied with their own transpose. -/
def gramV (z : FVec Ideal S512x1024 .f32) : FVec Ideal S512x512 .f32 :=
  matmul dot_S512x1024_S512x1024_S512x512_1_1_0_0_n_n none (truncf .bf16 z bitsLt_bf16_f32) (truncf .bf16 z bitsLt_bf16_f32)
    (constant S512x512 .f32 0x00000000#32)

/-- The body's stored value is the four stretches composed, between the casts that drop and add the block's unit axis. -/
theorem pay_eq (v0 v2 v4 : Vec Ideal S1x512x512 .f32) (v6 : Vec Ideal S1x512x1024 .f32) :
    k0_pay1 v0 v2 v4 v6 = shapeCast S1x512x512 (gramV (normV (centredV (scaledV
      (shapeCast S512x512 v0 shapeCasts_S1x512x512_S512x512) (shapeCast S512x512 v2 shapeCasts_S1x512x512_S512x512)
      (shapeCast S512x512 v4 shapeCasts_S1x512x512_S512x512) (shapeCast S512x1024 v6 shapeCasts_S1x512x1024_S512x1024)))))
      shapeCasts_S512x512_S1x512x512 := rfl

/-! ## Each stretch read at an index -/

theorem scaledV_apply (v1 v3 v5 : FVec Ideal S512x512 .f32) (v7 : FVec Ideal S512x1024 .f32) (i : Fin 512) (q : Fin 1024) :
    scaledV v1 v3 v5 v7 (ix2 i q)
      = featK cScale cOne (fun a b => v1 (ix2 a b)) (fun a b => v3 (ix2 a b)) (fun a b => v5 (ix2 a b)) (fun a b => v7 (ix2 a b)) i q := by
  unfold scaledV featK diagK
  rw [mulf_apply]
  refine congrArg (fun z => v7 (ix2 i q) * z) ?_
  refine (broadcastTo_a1_ab_apply _ _ i q).trans ?_
  rw [addf_apply, mulf_apply, broadcast_apply, broadcast_apply]
  refine congrArg (fun z => cOne + cScale * z) ?_
  refine (shapeCast_a_a1_apply _ _ i 0).trans ?_
  refine (sum_axis1_apply _ _ _ _ _ i).trans ?_
  refine Finset.sum_congr rfl fun k _ => ?_
  rw [mulf_apply]
  refine congrArg (fun z => v1 (ix2 i k) * z) ?_
  refine (transpose_ix2_apply _ _ i k).trans ?_
  exact matmul_rows_cols_apply _ v3 v5 k i

theorem centredV_apply (x : FVec Ideal S512x1024 .f32) (r : Fin 512) (k : Fin 1024) :
    centredV x (ix2 r k) = centred cCols (fun a q => x (ix2 a q)) r k := by
  unfold centredV centred rowMean
  rw [subf_apply]
  refine congrArg (fun z => x (ix2 r k) - z) ?_
  refine (broadcastTo_a1_ab_apply _ _ r k).trans ?_
  rw [divf_apply, broadcast_apply]
  refine congrArg (fun z => Ideal.div z cCols) ?_
  refine (shapeCast_a_a1_apply _ _ r 0).trans ?_
  exact sum_axis1_apply _ _ _ _ _ r

theorem normV_apply (y : FVec Ideal S512x1024 .f32) (r : Fin 512) (k : Fin 1024) :
    normV y (ix2 r k) = y (ix2 r k) * Ideal.rsqrt (∑ k' : Fin 1024, y (ix2 r k') * y (ix2 r k')) := by
  unfold normV
  rw [mulf_apply]
  refine congrArg (fun z => y (ix2 r k) * z) ?_
  refine (broadcastTo_a1_ab_apply _ _ r k).trans ?_
  show Ideal.rsqrt _ = _
  refine congrArg Ideal.rsqrt ?_
  refine (shapeCast_a_a1_apply _ _ r 0).trans ?_
  exact sum_axis1_apply _ _ _ _ _ r

theorem gramV_apply (z : FVec Ideal S512x1024 .f32) (r s : Fin 512) :
    gramV z (ix2 r s) = ∑ k : Fin 1024, z (ix2 r k) * z (ix2 s k) := by
  unfold gramV
  exact matmul_rows_rows_apply none _ _ r s

/-- THE STORED VALUE AT AN INDEX: entry `(0, r, s)` of the block the body stores is the Gram matrix, at `(r, s)`, of the
    scaled features of the four loaded blocks. -/
theorem pay_apply (v0 v2 v4 : Vec Ideal S1x512x512 .f32) (v6 : Vec Ideal S1x512x1024 .f32) (r s : Fin 512) :
    k0_pay1 v0 v2 v4 v6 (ix3 (0 : Fin 1) r s)
      = gram cCols (featK cScale cOne (fun a b => v0 (ix3 (0 : Fin 1) a b)) (fun a b => v2 (ix3 (0 : Fin 1) a b))
          (fun a b => v4 (ix3 (0 : Fin 1) a b)) (fun a b => v6 (ix3 (0 : Fin 1) a b))) r s := by
  rw [pay_eq]
  refine (shapeCast_ab_1ab_apply _ _ 0 r s).trans ?_
  rw [gramV_apply]
  unfold gram unitRow
  have hF : (fun a q => scaledV (shapeCast S512x512 v0 shapeCasts_S1x512x512_S512x512) (shapeCast S512x512 v2 shapeCasts_S1x512x512_S512x512)
        (shapeCast S512x512 v4 shapeCasts_S1x512x512_S512x512) (shapeCast S512x1024 v6 shapeCasts_S1x512x1024_S512x1024) (ix2 a q))
      = featK cScale cOne (fun a b => v0 (ix3 (0 : Fin 1) a b)) (fun a b => v2 (ix3 (0 : Fin 1) a b))
          (fun a b => v4 (ix3 (0 : Fin 1) a b)) (fun a b => v6 (ix3 (0 : Fin 1) a b)) := by
    funext a q
    rw [scaledV_apply]
    simp only [shapeCast_1ab_ab_apply]
  rw [← hF]
  refine Finset.sum_congr rfl fun k _ => ?_
  simp only [normV_apply, centredV_apply]

end Cert.KernelIdeal.Payload

end
-- ==== Proof.KernelValue.lean ====
/-
  From what each grid point writes back to the whole result array of the kernel.

  The grid has 32 points; point `t` holds batch entry `t` of each argument (every window's block index is `(t, 0, 0)`,
  its block one whole `[1, 512, ·]` slab), and writes back slab `t` of the result.  So what point `t` writes back is slab
  `t` of ONE function of the argument arrays, `Cert.RowGram.result` (`flushed_eq`, from the stored value read at an
  index); the 32 slabs cover the array (`cover`: index `i` lies in the slab of point `i 0`); hence the array after the run
  is that function (`final`), and the kernel's run ends with the result array there and the arguments unchanged (`run`).
-/
import proofs.«173695_j1949915152710_2_alg».proof.Proof.Gen.KernelIdeal.Value
import proofs.«173695_j1949915152710_2_alg».proof.Proof.KernelPayload
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.RowGram Cert.KernelIdeal.Payload

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 32 grid points: every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## Each input block is a slab of its argument -/

theorem iblk0_apply (c : Dev nD) (t : Fin cfg0.N) (x : S1x512x512.Idx) (k : S32x512x512.Idx)
    (hk0 : (k 0).val = t.val) (hk1 : (k 1).val = (x 1).val) (hk2 : (k 2).val = (x 2).val) :
    (iblk m c 0 t : Vec Ideal S1x512x512 .f32) x = (V m c main_arg3 : S32x512x512.Idx → Elt Ideal .f32) k := by
  obtain ⟨⟨h0, h1, h2⟩, -⟩ := idx_facts t
  have hx0 : (x 0).val < 1 := (x 0).isLt
  unfold iblk
  rw [View.read_apply]
  show V m c main_arg3 _ = V m c main_arg3 _
  refine congrArg (V m c main_arg3) ?_
  funext a
  apply Fin.ext
  match a with
  | ⟨0, _⟩ => show win0_0.index t 0 * 1 + 1 * (x 0).val = (k 0).val; rw [h0, hk0]; omega
  | ⟨1, _⟩ => show win0_0.index t 1 * 512 + 1 * (x 1).val = (k 1).val; rw [h1, hk1]; omega
  | ⟨2, _⟩ => show win0_0.index t 2 * 512 + 1 * (x 2).val = (k 2).val; rw [h2, hk2]; omega

theorem iblk1_apply (c : Dev nD) (t : Fin cfg0.N) (x : S1x512x512.Idx) (k : S32x512x512.Idx)
    (hk0 : (k 0).val = t.val) (hk1 : (k 1).val = (x 1).val) (hk2 : (k 2).val = (x 2).val) :
    (iblk m c 1 t : Vec Ideal S1x512x512 .f32) x = (V m c main_arg4 : S32x512x512.Idx → Elt Ideal .f32) k := by
  obtain ⟨-, ⟨h0, h1, h2⟩, -⟩ := idx_facts t
  have hx0 : (x 0).val < 1 := (x 0).isLt
  unfold iblk
  rw [View.read_apply]
  show V m c main_arg4 _ = V m c main_arg4 _
  refine congrArg (V m c main_arg4) ?_
  funext a
  apply Fin.ext
  match a with
  | ⟨0, _⟩ => show win0_1.index t 0 * 1 + 1 * (x 0).val = (k 0).val; rw [h0, hk0]; omega
  | ⟨1, _⟩ => show win0_1.index t 1 * 512 + 1 * (x 1).val = (k 1).val; rw [h1, hk1]; omega
  | ⟨2, _⟩ => show win0_1.index t 2 * 512 + 1 * (x 2).val = (k 2).val; rw [h2, hk2]; omega

theorem iblk2_apply (c : Dev nD) (t : Fin cfg0.N) (x : S1x512x512.Idx) (k : S32x512x512.Idx)
    (hk0 : (k 0).val = t.val) (hk1 : (k 1).val = (x 1).val) (hk2 : (k 2).val = (x 2).val) :
    (iblk m c 2 t : Vec Ideal S1x512x512 .f32) x = (V m c main_arg5 : S32x512x512.Idx → Elt Ideal .f32) k := by
  obtain ⟨-, -, ⟨h0, h1, h2⟩, -⟩ := idx_facts t
  have hx0 : (x 0).val < 1 := (x 0).isLt
  unfold iblk
  rw [View.read_apply]
  show V m c main_arg5 _ = V m c main_arg5 _
  refine congrArg (V m c main_arg5) ?_
  funext a
  apply Fin.ext
  match a with
  | ⟨0, _⟩ => show win0_2.index t 0 * 1 + 1 * (x 0).val = (k 0).val; rw [h0, hk0]; omega
  | ⟨1, _⟩ => show win0_2.index t 1 * 512 + 1 * (x 1).val = (k 1).val; rw [h1, hk1]; omega
  | ⟨2, _⟩ => show win0_2.index t 2 * 512 + 1 * (x 2).val = (k 2).val; rw [h2, hk2]; omega

theorem iblk3_apply (c : Dev nD) (t : Fin cfg0.N) (x : S1x512x1024.Idx) (k : S32x512x1024.Idx)
    (hk0 : (k 0).val = t.val) (hk1 : (k 1).val = (x 1).val) (hk2 : (k 2).val = (x 2).val) :
    (iblk m c 3 t : Vec Ideal S1x512x1024 .f32) x = (V m c main_arg6 : S32x512x1024.Idx → Elt Ideal .f32) k := by
  obtain ⟨-, -, -, ⟨h0, h1, h2⟩, -⟩ := idx_facts t
  have hx0 : (x 0).val < 1 := (x 0).isLt
  unfold iblk
  rw [View.read_apply]
  show V m c main_arg6 _ = V m c main_arg6 _
  refine congrArg (V m c main_arg6) ?_
  funext a
  apply Fin.ext
  match a with
  | ⟨0, _⟩ => show win0_3.index t 0 * 1 + 1 * (x 0).val = (k 0).val; rw [h0, hk0]; omega
  | ⟨1, _⟩ => show win0_3.index t 1 * 512 + 1 * (x 1).val = (k 1).val; rw [h1, hk1]; omega
  | ⟨2, _⟩ => show win0_3.index t 2 * 1024 + 1 * (x 2).val = (k 2).val; rw [h2, hk2]; omega

/-! ## What a point writes back -/

/-- The stored value of blocks that are slab `b` of four arrays is slab `b` of the result of those arrays. -/
theorem point_eq (x0 x1 x2 : Vec Ideal S1x512x512 .f32) (x3 : Vec Ideal S1x512x1024 .f32)
    (a3 a4 a5 : S32x512x512.Idx → EReal) (a6 : S32x512x1024.Idx → EReal) (b : Fin 32)
    (h0 : ∀ x y : Fin 512, x0 (ix3 (0 : Fin 1) x y) = a3 (ix3 b x y))
    (h1 : ∀ x y : Fin 512, x1 (ix3 (0 : Fin 1) x y) = a4 (ix3 b x y))
    (h2 : ∀ x y : Fin 512, x2 (ix3 (0 : Fin 1) x y) = a5 (ix3 b x y))
    (h3 : ∀ (x : Fin 512) (y : Fin 1024), x3 (ix3 (0 : Fin 1) x y) = a6 (ix3 b x y))
    (j : S1x512x512.Idx) (i : S32x512x512.Idx)
    (hi0 : (i 0).val = b.val) (hi1 : (i 1).val = (j 1).val) (hi2 : (i 2).val = (j 2).val) :
    k0_pay1 x0 x1 x2 x3 j = result a3 a4 a5 a6 i := by
  obtain ⟨u, r, s, rfl⟩ : ∃ (u : Fin 1) (r s : Fin 512), j = ix3 u r s := ⟨j 0, j 1, j 2, eq_ix3 j⟩
  obtain rfl : u = 0 := Subsingleton.elim _ _
  have e0 : (⟨(i 0).val, (i 0).isLt⟩ : Fin 32) = b := Fin.ext hi0
  have e1 : (⟨(i 1).val, (i 1).isLt⟩ : Fin 512) = r := Fin.ext hi1
  have e2 : (⟨(i 2).val, (i 2).isLt⟩ : Fin 512) = s := Fin.ext hi2
  unfold result
  rw [e0, e1, e2, pay_apply]
  unfold resultAt
  simp only [h0, h1, h2, h3]

/-- WHAT POINT `t` WRITES BACK is slab `t` of the result of the argument arrays as the region finds them. -/
theorem flushed_eq (c : Dev nD) (t : Fin cfg0.N) :
    (dats m 0 c).flushed 4 t = ((cfg0.win 4).blk t).view.read (Elt Ideal)
      (result (V m c main_arg3) (V m c main_arg4) (V m c main_arg5) (V m c main_arg6)) := by
  rw [Cert.KernelIdeal.Value.flushed4]
  unfold out0_4
  rw [View.canon_unit_zero hz]
  simp only [View.ld_unit_zero (S := S1x512x512) hz, View.ld_unit_zero (S := S1x512x1024) hz]
  have ht : t.val < 32 := by have h := t.isLt; have hN : cfg0.N = 32 := N_0; omega
  obtain ⟨-, -, -, -, ⟨g0, g1, g2⟩⟩ := idx_facts t
  funext j
  show k0_pay1 (iblk m c 0 t) (iblk m c 1 t) (iblk m c 2 t) (iblk m c 3 t) j
    = result (V m c main_arg3) (V m c main_arg4) (V m c main_arg5) (V m c main_arg6) (((cfg0.win 4).blk t).view.emb j)
  have hj0 : (j 0).val < 1 := (j 0).isLt
  refine point_eq (iblk m c 0 t) (iblk m c 1 t) (iblk m c 2 t) (iblk m c 3 t)
    (V m c main_arg3) (V m c main_arg4) (V m c main_arg5) (V m c main_arg6) ⟨t.val, ht⟩
    (fun x y => iblk0_apply m c t _ _ rfl rfl rfl) (fun x y => iblk1_apply m c t _ _ rfl rfl rfl)
    (fun x y => iblk2_apply m c t _ _ rfl rfl rfl) (fun x y => iblk3_apply m c t _ _ rfl rfl rfl)
    j _ ?_ ?_ ?_
  · show win0_4.index t 0 * 1 + 1 * (j 0).val = t.val
    rw [g0]; omega
  · show win0_4.index t 1 * 512 + 1 * (j 1).val = (j 1).val
    rw [g1]; omega
  · show win0_4.index t 2 * 512 + 1 * (j 2).val = (j 2).val
    rw [g2]; omega

/-! ## The slabs cover the array -/

/-- An index of the array is in point `t`'s block iff each coordinate is in the block's range on its axis. -/
theorem mem_blk (t : Fin cfg0.N) (i : S32x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v0).slice (win0_4.rect t)).set ↔ _
  rw [View.set_slice_whole, Rect.mem_set_unit]
  exact Iff.rfl

/-- Every index lies in the slab of the point its first coordinate names, and every point writes back. -/
theorem cover (i : S32x512x512.Idx) :
    ∃ t : Fin cfg0.N, (cfg0.win 4).flush t = true ∧ i ∈ ((cfg0.win 4).blk t).view.set := by
  have hi0 : (i 0).val < 32 := (i 0).isLt
  have hi1 : (i 1).val < 512 := (i 1).isLt
  have hi2 : (i 2).val < 512 := (i 2).isLt
  have hN : (i 0).val < cfg0.N := by have hN' : cfg0.N = 32 := N_0; omega
  obtain ⟨-, -, -, -, ⟨g0, g1, g2⟩⟩ := idx_facts ⟨(i 0).val, hN⟩
  have g0' : win0_4.index ⟨(i 0).val, hN⟩ (0 : Fin 3) = (i 0).val := g0
  refine ⟨⟨(i 0).val, hN⟩, flush0_4 _, ?_⟩
  rw [mem_blk]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [g0']; omega
  | ⟨1, _⟩ =>
    show win0_4.index ⟨(i 0).val, hN⟩ (1 : Fin 3) * 512 ≤ (i 1).val ∧ (i 1).val < win0_4.index ⟨(i 0).val, hN⟩ (1 : Fin 3) * 512 + 512
    rw [g1]; omega
  | ⟨2, _⟩ =>
    show win0_4.index ⟨(i 0).val, hN⟩ (2 : Fin 3) * 512 ≤ (i 2).val ∧ (i 2).val < win0_4.index ⟨(i 0).val, hN⟩ (2 : Fin 3) * 512 + 512
    rw [g2]; omega

/-! ## The array after the run, and the run -/

/-- THE ARRAY after the run is the result of the argument arrays. -/
theorem final (c : Dev nD) : (dats m 0 c).arrAt 4 cfg0.N
    = result (m ((c : Thread nD τ).loc main_arg3)) (m ((c : Thread nD τ).loc main_arg4))
        (m ((c : Thread nD τ).loc main_arg5)) (m ((c : Thread nD τ).loc main_arg6)) :=
  (dats m 0 c).arrAt_eq_of_cover 4
    (result (V m c main_arg3) (V m c main_arg4) (V m c main_arg5) (V m c main_arg6))
    (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefValue.lean ====
/-
  What the reference computes, read at an index, and that it is the kernel's result on finite inputs.

  The reference forms, per batch entry `b`, the triple product `(pb · ev) · w` by two contractions, multiplies it entry by
  entry with the identity matrix (an `i = l` comparison of two index grids, converted to `1.0` / `0.0`), multiplies the
  masked matrix with the features, scales by `c` and adds the features (`Cert.RowGram.featR`); then centres each row,
  scales it to unit length and contracts the rows with themselves (`Cert.RowGram.gram`).  Each stage is read at an index
  built from coordinates: a contraction is the sum over the contracted coordinate, a sum along the last axis is the zero
  initial value plus the sum over that coordinate, a broadcast reads its operand at the coordinates it keeps.  On inputs
  whose entries are all real numbers the features agree with the kernel's arrangement (`Cert.RowGram.featR_eq_featK`),
  so the reference's result is `Cert.RowGram.result` of the arguments.
-/
import proofs.«173695_j1949915152710_2_alg».proof.Proof.Gen.ReferenceIdeal.Read
import proofs.«173695_j1949915152710_2_alg».proof.Proof.Spec
import Idealize.ShloMosaic.Lib.ValueIdx
import Idealize.ShloMosaic.Lib.Affine
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowGram

variable (x3 x4 x5 : (⟨S32x512x512, .f32⟩ : BufTy).Contents (Elt Ideal)) (x6 : (⟨S32x512x1024, .f32⟩ : BufTy).Contents (Elt Ideal))

/-! ## The index functions of the stages, at indices built from coordinates -/

theorem i19 (u : Fin 1) (i l : Fin 512) : idx_main_v19 (ix3 u i l) = ix2 i l :=
  funext fun a => Fin.ext (by match a with | ⟨0, _⟩ => rfl | ⟨1, _⟩ => rfl)
theorem i20 (b : Fin 32) (i l : Fin 512) : idx_main_v20 (ix3 b i l) = ix3 (0 : Fin 1) i l :=
  funext fun a => Fin.ext (by match a with | ⟨0, _⟩ => rfl | ⟨1, _⟩ => rfl | ⟨2, _⟩ => rfl)
theorem l17 (b : Fin 32) (k i j : Fin 512) : lidx_main_v17 (ix3 b k i) j = ix3 b j k :=
  funext fun a => Fin.ext (by match a with | ⟨0, _⟩ => rfl | ⟨1, _⟩ => rfl | ⟨2, _⟩ => rfl)
theorem r17 (b : Fin 32) (k i j : Fin 512) : ridx_main_v17 (ix3 b k i) j = ix3 b i j :=
  funext fun a => Fin.ext (by match a with | ⟨0, _⟩ => rfl | ⟨1, _⟩ => rfl | ⟨2, _⟩ => rfl)
theorem l18 (b : Fin 32) (i l k : Fin 512) : lidx_main_v18 (ix3 b i l) k = ix3 b k i :=
  funext fun a => Fin.ext (by match a with | ⟨0, _⟩ => rfl | ⟨1, _⟩ => rfl | ⟨2, _⟩ => rfl)
theorem r18 (b : Fin 32) (i l k : Fin 512) : ridx_main_v18 (ix3 b i l) k = ix3 b k l :=
  funext fun a => Fin.ext (by match a with | ⟨0, _⟩ => rfl | ⟨1, _⟩ => rfl | ⟨2, _⟩ => rfl)
theorem l22 (b : Fin 32) (i : Fin 512) (q : Fin 1024) (l : Fin 512) : lidx_main_v22 (ix3 b i q) l = ix3 b i l :=
  funext fun a => Fin.ext (by match a with | ⟨0, _⟩ => rfl | ⟨1, _⟩ => rfl | ⟨2, _⟩ => rfl)
theorem r22 (b : Fin 32) (i : Fin 512) (q : Fin 1024) (l : Fin 512) : ridx_main_v22 (ix3 b i q) l = ix3 b l q :=
  funext fun a => Fin.ext (by match a with | ⟨0, _⟩ => rfl | ⟨1, _⟩ => rfl | ⟨2, _⟩ => rfl)
theorem i26 (b : Fin 32) (r : Fin 512) (k : Fin 1024) : idx_main_v26 (ix2 b r) k = ix3 b r k :=
  funext fun a => Fin.ext (by match a with | ⟨0, _⟩ => rfl | ⟨1, _⟩ => rfl | ⟨2, _⟩ => rfl)
theorem i27 (b : Fin 32) (r : Fin 512) (u : Fin 1) : idx_main_v27 (ix3 b r u) = ix2 b r :=
  funext fun a => Fin.ext (by match a with | ⟨0, _⟩ => rfl | ⟨1, _⟩ => rfl)
theorem i30 (b : Fin 32) (r : Fin 512) (k : Fin 1024) : idx_main_v30 (ix3 b r k) = ix3 b r (0 : Fin 1) :=
  funext fun a => Fin.ext (by match a with | ⟨0, _⟩ => rfl | ⟨1, _⟩ => rfl | ⟨2, _⟩ => rfl)
theorem i33 (b : Fin 32) (r : Fin 512) (k : Fin 1024) : idx_main_v33 (ix2 b r) k = ix3 b r k :=
  funext fun a => Fin.ext (by match a with | ⟨0, _⟩ => rfl | ⟨1, _⟩ => rfl | ⟨2, _⟩ => rfl)
theorem i34 (b : Fin 32) (r : Fin 512) (u : Fin 1) : idx_main_v34 (ix3 b r u) = ix2 b r :=
  funext fun a => Fin.ext (by match a with | ⟨0, _⟩ => rfl | ⟨1, _⟩ => rfl)
theorem i36 (b : Fin 32) (r : Fin 512) (k : Fin 1024) : idx_main_v36 (ix3 b r k) = ix3 b r (0 : Fin 1) :=
  funext fun a => Fin.ext (by match a with | ⟨0, _⟩ => rfl | ⟨1, _⟩ => rfl | ⟨2, _⟩ => rfl)
theorem l38 (b : Fin 32) (r s : Fin 512) (k : Fin 1024) : lidx_main_v38 (ix3 b r s) k = ix3 b r k :=
  funext fun a => Fin.ext (by match a with | ⟨0, _⟩ => rfl | ⟨1, _⟩ => rfl | ⟨2, _⟩ => rfl)
theorem r38 (b : Fin 32) (r s : Fin 512) (k : Fin 1024) : ridx_main_v38 (ix3 b r s) k = ix3 b s k :=
  funext fun a => Fin.ext (by match a with | ⟨0, _⟩ => rfl | ⟨1, _⟩ => rfl | ⟨2, _⟩ => rfl)

/-! ## The identity matrix -/

/-- The comparison of the row-index grid with the column-index grid, converted to a float, is `1` on the diagonal and
    `0` off it: two indices below 512 have equal 32-bit patterns only when they are equal. -/
theorem eye_apply (i l : Fin 512) : val_main_v16 (F := Ideal) (ix2 i l) = if i = l then (1 : EReal) else 0 := by
  rw [val_main_v16_apply, val_main_v15_apply, val_main_v14_apply, val_main_v13_apply, val_main_c_0_apply,
    val_main_v11_apply, val_main_v12_apply]
  show (((IntOp.cmpi .eq (IntOp.addi (BitVec.ofNat 32 i.val) 0#32) (BitVec.ofNat 32 l.val)).toNat : ℝ) : EReal) = _
  have hadd : IntOp.addi (BitVec.ofNat 32 i.val) 0#32 = BitVec.ofNat 32 i.val := by
    unfold IntOp.addi; exact BitVec.add_zero _
  rw [hadd]
  have hi := i.isLt
  have hl := l.isLt
  by_cases h : i = l
  · subst h
    rw [if_pos rfl, IntOp.cmpi_eq.mpr rfl]
    simp
  · rw [if_neg h]
    have hne : ¬IntOp.cmpi .eq (BitVec.ofNat 32 i.val) (BitVec.ofNat 32 l.val) = 1#1 := by
      rw [IntOp.cmpi_eq]
      intro e
      have e' := congrArg BitVec.toNat e
      simp only [BitVec.toNat_ofNat] at e'
      rw [Nat.mod_eq_of_lt (by omega), Nat.mod_eq_of_lt (by omega)] at e'
      exact h (Fin.ext e')
    rw [eq_zero_of_ne_one hne]
    simp

/-! ## The features -/

/-- The reference's features of batch entry `b`, at `(i, q)`. -/
theorem feat_apply (b : Fin 32) (i : Fin 512) (q : Fin 1024) :
    val_main_v25 (F := Ideal) x3 x4 x5 x6 (ix3 b i q)
      = featR cScale (fun i l => val_main_v16 (F := Ideal) (ix2 i l)) (fun x y => x3 (ix3 b x y)) (fun x y => x4 (ix3 b x y))
          (fun x y => x5 (ix3 b x y)) (fun x y => x6 (ix3 b x y)) i q := by
  unfold featR tripleR
  rw [val_main_v25_apply, val_main_v24_apply, val_main_v23_apply, val_main_cst_apply, val_main_v22_apply]
  simp only [l22, r22, val_main_v21_apply, val_main_v20_apply, i20, val_main_v19_apply, i19, val_main_v18_apply, l18, r18,
    val_main_v17_apply, l17, r17, Ideal.mulf_def, Ideal.addf_def, Ideal.ofBits_def]

/-! ## The tail -/

/-- The row sums, with their zero initial value. -/
theorem centred_apply (b : Fin 32) (r : Fin 512) (k : Fin 1024) :
    val_main_v31 (F := Ideal) x3 x4 x5 x6 (ix3 b r k)
      = centred cCols (fun i q => val_main_v25 (F := Ideal) x3 x4 x5 x6 (ix3 b i q)) r k := by
  unfold centred rowMean
  rw [val_main_v31_apply, val_main_v30_apply, i30, val_main_v29_apply, val_main_v28_apply, val_main_cst_2_apply,
    val_main_v27_apply, i27, val_main_v26_apply, val_main_cst_1_apply]
  simp only [i26, Ideal.subf_def, Ideal.hostDivf_def, Ideal.ofBits_def, Ideal.ofBits_zero_f32, zero_add]

theorem unit_apply (b : Fin 32) (r : Fin 512) (k : Fin 1024) :
    val_main_v37 (F := Ideal) x3 x4 x5 x6 (ix3 b r k)
      = unitRow cCols (fun i q => val_main_v25 (F := Ideal) x3 x4 x5 x6 (ix3 b i q)) r k := by
  unfold unitRow
  rw [val_main_v37_apply, val_main_v36_apply, i36, val_main_v35_apply, val_main_v34_apply, i34, val_main_v33_apply,
    val_main_cst_3_apply]
  simp only [i33, val_main_v32_apply, centred_apply, Ideal.mulf_def, Ideal.hostUnary_rsqrt_def, Ideal.ofBits_def,
    Ideal.ofBits_zero_f32, zero_add]

theorem gram_apply (b : Fin 32) (r s : Fin 512) :
    val_main_v38 (F := Ideal) x3 x4 x5 x6 (ix3 b r s)
      = gram cCols (fun i q => val_main_v25 (F := Ideal) x3 x4 x5 x6 (ix3 b i q)) r s := by
  unfold gram
  rw [val_main_v38_apply]
  simp only [l38, r38, unit_apply]

/-! ## The reference's result is the kernel's -/

/-- On arguments whose entries are all real numbers the reference's last stage is `result` of the arguments. -/
theorem ref_eq_result
    (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    val_main_v38 (F := Ideal) x3 x4 x5 x6 = result x3 x4 x5 x6 := by
  funext i
  obtain ⟨b, r, s, rfl⟩ : ∃ (b : Fin 32) (r s : Fin 512), i = ix3 b r s := ⟨i 0, i 1, i 2, eq_ix3 i⟩
  rw [gram_apply]
  show _ = resultAt x3 x4 x5 x6 b r s
  unfold resultAt
  have hF : (fun i q => val_main_v25 (F := Ideal) x3 x4 x5 x6 (ix3 b i q))
      = featK cScale cOne (fun x y => x3 (ix3 b x y)) (fun x y => x4 (ix3 b x y)) (fun x y => x5 (ix3 b x y))
          (fun x y => x6 (ix3 b x y)) := by
    rw [cOne_eq, ← featR_eq_featK cScale_real (fun i l => val_main_v16 (F := Ideal) (ix2 i l)) eye_apply _ _ _ _
      (fun x y => h3 _) (fun x y => h4 _) (fun x y => h5 _) (fun x y => h6 _)]
    funext i q
    exact feat_apply x3 x4 x5 x6 b i q
  rw [hF]

end Cert.ReferenceIdeal.RefValue

end
-- ==== Proof.FiniteInputs.lean ====
/-
  Finite inputs are real numbers. The precondition is a printed predicate: for each float array `x` it
  forms `|x| < +∞` entry by entry, folds the resulting one-bit words by `and` over all axes, and joins the
  seven folds by `and`. Read at the idealised floats (extended reals), the predicate being 1 says that
  every entry of every array is neither `+∞`, `-∞` nor the junk value `⊥`: it is (the image of) a real.
-/
import proofs.«173695_j1949915152710_2_alg».proof.Pre_finite_inputs
import Idealize.ShloMosaic.Lib.ReduceAll
import Idealize.ShloMosaic.PureOps.Ideal
import Idealize.ShloMosaic.Lib.ValueIdx

open Idealize.ShloMosaic

namespace Cert.FiniteInputs

open Cert.Pre_finite_inputs

/-- The rank-0 shape has exactly one index. -/
instance : Subsingleton S_.Idx := ⟨fun a b => funext fun d => d.elim0⟩

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- `jnp.all(|x| < +∞)` over an array of any shape: if the fold by `and` of the entrywise comparisons
    `|x i| < +∞` into the one-index result is 1, then every entry of `x` is a real number. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant S_ .f32 0x7F800000#32))) init hr hu j = 1#1) :
    ∀ i, ∃ r : ℝ, x i = (r : EReal) := by
  intro i
  have hi := Host.reduce_andi_all _ init hr hu j e i
  apply real_of_abs_lt_top
  have hc : Ideal.cmp .olt (max (x i) (-(x i))) (Ideal.ofBits .f32 0x7F800000#32) = 1#1 := hi
  rw [ofBits_inf] at hc
  by_contra hn
  simp [Ideal.cmp, hn] at hc

/-- The precondition read at the idealised floats: if the printed predicate is 1, every entry of the four
    large arrays is a real number. The predicate's word at the one index is the `and` of seven folds;
    each of the last four folds being 1 gives the claim for its array. -/
theorem real_of_finite [Facts]
    (a0 a1 a2 : FVec Ideal S32x48x48 .f32) (a3 a4 a5 : FVec Ideal S32x512x512 .f32)
    (a6 : FVec Ideal S32x512x1024 .f32)
    (h : fn (F := Ideal) a0 a1 a2 a3 a4 a5 a6 = fun _ => 1#1) :
    (∀ i, ∃ r : ℝ, a3 i = (r : EReal)) ∧ (∀ i, ∃ r : ℝ, a4 i = (r : EReal)) ∧
      (∀ i, ∃ r : ℝ, a5 i = (r : EReal)) ∧ (∀ i, ∃ r : ℝ, a6 i = (r : EReal)) := by
  have h0 := congrFun h ValueIdx.ix0
  dsimp only [fn, fn_part1, Idealize.ShloMosaic.andi] at h0
  obtain ⟨h0, e6⟩ := IntOp.andi_eq_one.1 h0
  obtain ⟨h0, e5⟩ := IntOp.andi_eq_one.1 h0
  obtain ⟨h0, e4⟩ := IntOp.andi_eq_one.1 h0
  obtain ⟨_, e3⟩ := IntOp.andi_eq_one.1 h0
  exact ⟨real_of_all_abs_lt_inf a3 _ _ _ _ _ e3, real_of_all_abs_lt_inf a4 _ _ _ _ _ e4,
    real_of_all_abs_lt_inf a5 _ _ _ _ _ e5, real_of_all_abs_lt_inf a6 _ _ _ _ _ e6⟩

end Cert.FiniteInputs
-- ==== Proof.lean ====
/-
  The certificate's five claims.

  Per batch entry the kernel scales row `i` of the features by `1 + c · d i`, `d i` the `i`-th diagonal entry of
  `pb · (ev · w)`, then centres each row, scales it to unit length and multiplies the rows with their own transpose.  The
  reference forms the whole triple product `(pb · ev) · w`, masks it with the identity matrix, multiplies with the
  features, scales by `c`, adds the features, and applies the same tail.  On finite inputs — every entry a real
  number — the two feature matrices agree (the identity mask keeps the diagonal, the two groupings of the triple product
  have the same diagonal, and `c · (d · x) + x = x · (1 + c · d)`; `Proof/Spec.lean`), and the tail is one function of
  the features on both sides.  So both programs end with the result array at `Cert.RowGram.result` of the arguments:
  the kernel by its run read block by block (`Proof/KernelValue.lean` over `Proof/KernelPayload.lean`), the reference
  by its run read stage by stage (`Proof/RefValue.lean`), the precondition supplying the real entries
  (`Proof/FiniteInputs.lean`).  The three frames are the generated frame runs; the idealization rewrote nothing, so
  `preserves` is trivial.
-/
import proofs.«173695_j1949915152710_2_alg».proof.Defs
import proofs.«173695_j1949915152710_2_alg».proof.Proof.Gen.Kernel
import proofs.«173695_j1949915152710_2_alg».proof.Proof.Gen.Kernel.Skeleton
import proofs.«173695_j1949915152710_2_alg».proof.Proof.Gen.Kernel.Launch
import proofs.«173695_j1949915152710_2_alg».proof.Proof.Gen.Kernel.Points
import proofs.«173695_j1949915152710_2_alg».proof.Proof.Gen.Kernel.Frame
import proofs.«173695_j1949915152710_2_alg».proof.Proof.Gen.KernelIdeal
import proofs.«173695_j1949915152710_2_alg».proof.Proof.Gen.KernelIdeal.Skeleton
import proofs.«173695_j1949915152710_2_alg».proof.Proof.Gen.KernelIdeal.Launch
import proofs.«173695_j1949915152710_2_alg».proof.Proof.Gen.KernelIdeal.Points
import proofs.«173695_j1949915152710_2_alg».proof.Proof.Gen.KernelIdeal.Frame
import proofs.«173695_j1949915152710_2_alg».proof.Proof.Gen.ReferenceIdeal
import proofs.«173695_j1949915152710_2_alg».proof.Proof.Gen.Pre_finite_inputs
import proofs.«173695_j1949915152710_2_alg».proof.Proof.Gen.KernelIdeal.Value
import proofs.«173695_j1949915152710_2_alg».proof.Proof.Gen.ReferenceIdeal.Run
import proofs.«173695_j1949915152710_2_alg».proof.Proof.Gen.ReferenceIdeal.Read
import proofs.«173695_j1949915152710_2_alg».proof.Proof.KernelValue
import proofs.«173695_j1949915152710_2_alg».proof.Proof.RefValue
import proofs.«173695_j1949915152710_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame run. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end with the result array at
    `Cert.RowGram.result` of the four arguments they read. -/
theorem algebraic : Cert.algebraic_KernelIdeal_ReferenceIdeal := by
  intro m ρ m' ρ' hpre hagree
  refine ⟨fun c => Cert.RowGram.result (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨-, -, -, a3, a4, a5, a6⟩ := hagree c
  obtain ⟨f3, f4, f5, f6⟩ := Cert.FiniteInputs.real_of_finite _ _ _ _ _ _ _ (hpre c)
  rw [Cert.ReferenceIdeal.Read.val_main_v38_eq, a3, a4, a5, a6]
  exact Cert.ReferenceIdeal.RefValue.ref_eq_result _ _ _ _ f3 f4 f5 f6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
